-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x768 : Shape := ⟨2, ![65536, 768]⟩
abbrev S768x16x16 : Shape := ⟨3, ![768, 16, 16]⟩
abbrev S1x16x16 : Shape := ⟨3, ![1, 16, 16]⟩
abbrev S_ : Shape := ⟨0, ![]⟩

class Facts : Prop where
  bcast_S_S65536x768 : S_.BroadcastsInDim S65536x768 (![] : Fin 0 → Fin S65536x768.rank)
  reducesTo_S65536x768_S_d0_1 : S65536x768.ReducesTo [0, 1] S_
  h_S_ : 0 < S_.numel
  bcast_S_S768x16x16 : S_.BroadcastsInDim S768x16x16 (![] : Fin 0 → Fin S768x16x16.rank)
  reducesTo_S768x16x16_S_d0_1_2 : S768x16x16.ReducesTo [0, 1, 2] S_
  bcast_S_S1x16x16 : S_.BroadcastsInDim S1x16x16 (![] : Fin 0 → Fin S1x16x16.rank)
  reducesTo_S1x16x16_S_d0_1_2 : S1x16x16.ReducesTo [0, 1, 2] S_

variable [Facts]

def fn {F : FTy → Type} [FloatOps F] (main_arg0 : FVec F S65536x768 .f32) (main_arg1 : FVec F S768x16x16 .f32) (main_arg2 : FVec F S1x16x16 .f32) : IVec S_ 1 :=
  let main_v0 : FVec F S65536x768 .f32 := Host.absf main_arg0
  let main_cst : FVec F S_ .f32 := constant S_ .f32 0x7F800000#32
  let main_v1 : FVec F S65536x768 .f32 := broadcastInDim S65536x768 ![] bcast_S_S65536x768 main_cst
  let main_v2 : IVec S65536x768 1 := cmpf .olt main_v0 main_v1
  let main_c : IVec S_ 1 := constantI S_ 1 1#1
  let main_v3 : IVec S_ 1 := (fun x v => Host.reduce IntOp.andi x v reducesTo_S65536x768_S_d0_1 h_S_) main_v2 main_c
  let main_v4 : FVec F S768x16x16 .f32 := Host.absf main_arg1
  let main_cst_0 : FVec F S_ .f32 := constant S_ .f32 0x7F800000#32
  let main_v5 : FVec F S768x16x16 .f32 := broadcastInDim S768x16x16 ![] bcast_S_S768x16x16 main_cst_0
  let main_v6 : IVec S768x16x16 1 := cmpf .olt main_v4 main_v5
  let main_c_1 : IVec S_ 1 := constantI S_ 1 1#1
  let main_v7 : IVec S_ 1 := (fun x v => Host.reduce IntOp.andi x v reducesTo_S768x16x16_S_d0_1_2 h_S_) main_v6 main_c_1
  let main_v8 : IVec S_ 1 := andi main_v3 main_v7
  let main_v9 : FVec F S1x16x16 .f32 := Host.absf main_arg2
  let main_cst_2 : FVec F S_ .f32 := constant S_ .f32 0x7F800000#32
  let main_v10 : FVec F S1x16x16 .f32 := broadcastInDim S1x16x16 ![] bcast_S_S1x16x16 main_cst_2
  let main_v11 : IVec S1x16x16 1 := cmpf .olt main_v9 main_v10
  let main_c_3 : IVec S_ 1 := constantI S_ 1 1#1
  let main_v12 : IVec S_ 1 := (fun x v => Host.reduce IntOp.andi x v reducesTo_S1x16x16_S_d0_1_2 h_S_) main_v11 main_c_3
  let main_v13 : IVec S_ 1 := andi main_v8 main_v12
  main_v13
-- ==== Kernel.lean ====
abbrev S65536x768 : Shape := ⟨2, ![65536, 768]⟩
abbrev S768x16x16 : Shape := ⟨3, ![768, 16, 16]⟩
abbrev S1x16x16 : Shape := ⟨3, ![1, 16, 16]⟩
abbrev S768x256 : Shape := ⟨2, ![768, 256]⟩
abbrev S65536x256 : Shape := ⟨2, ![65536, 256]⟩
abbrev S1024x768 : Shape := ⟨2, ![1024, 768]⟩
abbrev S1024x256 : Shape := ⟨2, ![1024, 256]⟩
abbrev S1024x16x16 : Shape := ⟨3, ![1024, 16, 16]⟩
abbrev S16x16 : Shape := ⟨2, ![16, 16]⟩
abbrev S1024x16x1 : Shape := ⟨3, ![1024, 16, 1]⟩
abbrev S1024x1x16 : Shape := ⟨3, ![1024, 1, 16]⟩
abbrev S65536x16x16 : Shape := ⟨3, ![65536, 16, 16]⟩

abbrev nBuf : Space → Nat
  | .hbm => 7
  | .vmem => 6
  | .smem => 0
  | _ => 0

abbrev bufTy : (tb : Table) → Fin (tcTables nBuf tb) → BufTy
  | .hbm, ⟨0, _⟩ => ⟨S65536x768, .f32⟩
  | .hbm, ⟨1, _⟩ => ⟨S768x16x16, .f32⟩
  | .hbm, ⟨2, _⟩ => ⟨S1x16x16, .f32⟩
  | .hbm, ⟨3, _⟩ => ⟨S768x256, .f32⟩
  | .hbm, ⟨4, _⟩ => ⟨S768x256, .bf16⟩
  | .hbm, ⟨5, _⟩ => ⟨S65536x256, .f32⟩
  | .hbm, ⟨6, _⟩ => ⟨S65536x16x16, .f32⟩
  | .local _ .vmem, ⟨0, _⟩ => ⟨S1024x768, .f32⟩
  | .local _ .vmem, ⟨1, _⟩ => ⟨S1024x768, .f32⟩
  | .local _ .vmem, ⟨2, _⟩ => ⟨S768x256, .bf16⟩
  | .local _ .vmem, ⟨3, _⟩ => ⟨S1x16x16, .f32⟩
  | .local _ .vmem, ⟨4, _⟩ => ⟨S1024x256, .f32⟩
  | .local _ .vmem, ⟨5, _⟩ => ⟨S1024x256, .f32⟩
  | _, _ => ⟨S65536x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S768x16x16_S768x256 : S768x16x16.ShapeCasts S768x256
  bitsLt_bf16_f32 : FTy.bits .bf16 < FTy.bits .f32
  inb_S1024x768_S1024x768_0_0 : ∀ a, (![0, 0] : Fin 2 → Nat) a + S1024x768.size a ≤ S1024x768.size a
  h_S1024x768 : 0 < S1024x768.numel
  inb_S768x256_S768x256_0_0 : ∀ a, (![0, 0] : Fin 2 → Nat) a + S768x256.size a ≤ S768x256.size a
  h_S768x256 : 0 < S768x256.numel
  shapeCasts_S768x256_S768x256 : S768x256.ShapeCasts S768x256
  shapeCasts_S1024x256_S1024x16x16 : S1024x256.ShapeCasts S1024x16x16
  inb_S1x16x16_S1x16x16_0_0_0 : ∀ a, (![0, 0, 0] : Fin 3 → Nat) a + S1x16x16.size a ≤ S1x16x16.size a
  h_S1x16x16 : 0 < S1x16x16.numel
  broadcasts_S1x16x16_S1024x16x16 : S1x16x16.Broadcasts S1024x16x16
  iota_S16x16_d0_w32 : S16x16.Iotas .tc 32 [0]
  iota_S16x16_d1_w32 : S16x16.Iotas .tc 32 [1]
  shapeCasts_S16x16_S1x16x16 : S16x16.ShapeCasts S1x16x16
  slices_S1024x16x16_o0_0_0_S1024x16x1 : S1024x16x16.Slices ![0, 0, 0] S1024x16x1
  slices_S1024x16x16_o0_0_0_S1024x1x16 : S1024x16x16.Slices ![0, 0, 0] S1024x1x16
  broadcasts_S1024x16x1_S1024x16x16 : S1024x16x1.Broadcasts S1024x16x16
  broadcasts_S1024x1x16_S1024x16x16 : S1024x1x16.Broadcasts S1024x16x16
  slices_S1024x16x16_o0_0_1_S1024x16x1 : S1024x16x16.Slices ![0, 0, 1] S1024x16x1
  slices_S1024x16x16_o0_1_0_S1024x1x16 : S1024x16x16.Slices ![0, 1, 0] S1024x1x16
  slices_S1024x16x16_o0_0_2_S1024x16x1 : S1024x16x16.Slices ![0, 0, 2] S1024x16x1
  slices_S1024x16x16_o0_2_0_S1024x1x16 : S1024x16x16.Slices ![0, 2, 0] S1024x1x16
  slices_S1024x16x16_o0_0_3_S1024x16x1 : S1024x16x16.Slices ![0, 0, 3] S1024x16x1
  slices_S1024x16x16_o0_3_0_S1024x1x16 : S1024x16x16.Slices ![0, 3, 0] S1024x1x16
  slices_S1024x16x16_o0_0_4_S1024x16x1 : S1024x16x16.Slices ![0, 0, 4] S1024x16x1
  slices_S1024x16x16_o0_4_0_S1024x1x16 : S1024x16x16.Slices ![0, 4, 0] S1024x1x16
  slices_S1024x16x16_o0_0_5_S1024x16x1 : S1024x16x16.Slices ![0, 0, 5] S1024x16x1
  slices_S1024x16x16_o0_5_0_S1024x1x16 : S1024x16x16.Slices ![0, 5, 0] S1024x1x16
  slices_S1024x16x16_o0_0_6_S1024x16x1 : S1024x16x16.Slices ![0, 0, 6] S1024x16x1
  slices_S1024x16x16_o0_6_0_S1024x1x16 : S1024x16x16.Slices ![0, 6, 0] S1024x1x16
  slices_S1024x16x16_o0_0_7_S1024x16x1 : S1024x16x16.Slices ![0, 0, 7] S1024x16x1
  slices_S1024x16x16_o0_7_0_S1024x1x16 : S1024x16x16.Slices ![0, 7, 0] S1024x1x16
  slices_S1024x16x16_o0_0_8_S1024x16x1 : S1024x16x16.Slices ![0, 0, 8] S1024x16x1
  slices_S1024x16x16_o0_8_0_S1024x1x16 : S1024x16x16.Slices ![0, 8, 0] S1024x1x16
  slices_S1024x16x16_o0_0_9_S1024x16x1 : S1024x16x16.Slices ![0, 0, 9] S1024x16x1
  slices_S1024x16x16_o0_9_0_S1024x1x16 : S1024x16x16.Slices ![0, 9, 0] S1024x1x16
  slices_S1024x16x16_o0_0_10_S1024x16x1 : S1024x16x16.Slices ![0, 0, 10] S1024x16x1
  slices_S1024x16x16_o0_10_0_S1024x1x16 : S1024x16x16.Slices ![0, 10, 0] S1024x1x16
  slices_S1024x16x16_o0_0_11_S1024x16x1 : S1024x16x16.Slices ![0, 0, 11] S1024x16x1
  slices_S1024x16x16_o0_11_0_S1024x1x16 : S1024x16x16.Slices ![0, 11, 0] S1024x1x16
  slices_S1024x16x16_o0_0_12_S1024x16x1 : S1024x16x16.Slices ![0, 0, 12] S1024x16x1
  slices_S1024x16x16_o0_12_0_S1024x1x16 : S1024x16x16.Slices ![0, 12, 0] S1024x1x16
  slices_S1024x16x16_o0_0_13_S1024x16x1 : S1024x16x16.Slices ![0, 0, 13] S1024x16x1
  slices_S1024x16x16_o0_13_0_S1024x1x16 : S1024x16x16.Slices ![0, 13, 0] S1024x1x16
  slices_S1024x16x16_o0_0_14_S1024x16x1 : S1024x16x16.Slices ![0, 0, 14] S1024x16x1
  slices_S1024x16x16_o0_14_0_S1024x1x16 : S1024x16x16.Slices ![0, 14, 0] S1024x1x16
  slices_S1024x16x16_o0_0_15_S1024x16x1 : S1024x16x16.Slices ![0, 0, 15] S1024x16x1
  slices_S1024x16x16_o0_15_0_S1024x1x16 : S1024x16x16.Slices ![0, 15, 0] S1024x1x16
  shapeCasts_S1024x16x16_S1024x256 : S1024x16x16.ShapeCasts S1024x256
  inb_S1024x256_S1024x256_0_0 : ∀ a, (![0, 0] : Fin 2 → Nat) a + S1024x256.size a ≤ S1024x256.size a
  h_S1024x256 : 0 < S1024x256.numel
  shapeCasts_S65536x256_S65536x16x16 : S65536x256.ShapeCasts S65536x16x16
  dot_S1024x768_S768x256_S1024x256_1_0_0_1_n_n_wf : DotDims.WF S1024x768 S768x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x768.size a ≤ S65536x768.size a
  hwx0_0 : ∀ i : grid0.Coords, EltTy.bits .f32 = 32 ∨ (Rect.block (s := S65536x768) S1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .bf16 = 32 ∨ (Rect.block (s := S768x256) S768x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16x16.size a ≤ S1x16x16.size a
  hwx0_2 : ∀ i : grid0.Coords, EltTy.bits .f32 = 32 ∨ (Rect.block (s := S1x16x16) S1x16x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S65536x256.size a
  hwx0_3 : ∀ i : grid0.Coords, EltTy.bits .f32 = 32 ∨ (Rect.block (s := S65536x256) S1024x256.size (cc0_transform_3 i) (hinb0_3 i)).WholeWords (EltTy.packing .f32)

variable [Facts₀]

def dot_S1024x768_S768x256_S1024x256_1_0_0_1_n_n : DotDims S1024x768 S768x256 S1024x256 where
  lhsContracting := [1]
  rhsContracting := [0]
  lhsNonContracting := [0]
  rhsNonContracting := [1]
  lhsBatch := []
  rhsBatch := []
  wf := dot_S1024x768_S768x256_S1024x256_1_0_0_1_n_n_wf

abbrev win0_0 : Pipeline.Window sig grid0 :=
  Pipeline.Window.ofSpec (Memref.whole main_arg0) S1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x768 : Shape := ⟨2, ![65536, 768]⟩
abbrev S768x16x16 : Shape := ⟨3, ![768, 16, 16]⟩
abbrev S1x16x16 : Shape := ⟨3, ![1, 16, 16]⟩
abbrev S768x256 : Shape := ⟨2, ![768, 256]⟩
abbrev S65536x256 : Shape := ⟨2, ![65536, 256]⟩
abbrev S65536x16x16 : Shape := ⟨3, ![65536, 16, 16]⟩
abbrev S_ : Shape := ⟨0, ![]⟩
abbrev S16x16 : Shape := ⟨2, ![16, 16]⟩

abbrev nBuf : Space → Nat
  | .hbm => 25
  | .vmem => 0
  | .smem => 0
  | _ => 0

abbrev bufTy : (tb : Table) → Fin (tcTables nBuf tb) → BufTy
  | .hbm, ⟨0, _⟩ => ⟨S65536x768, .f32⟩
  | .hbm, ⟨1, _⟩ => ⟨S768x16x16, .f32⟩
  | .hbm, ⟨2, _⟩ => ⟨S1x16x16, .f32⟩
  | .hbm, ⟨3, _⟩ => ⟨S768x256, .f32⟩
  | .hbm, ⟨4, _⟩ => ⟨S65536x256, .f32⟩
  | .hbm, ⟨5, _⟩ => ⟨S65536x16x16, .f32⟩
  | .hbm, ⟨6, _⟩ => ⟨S65536x16x16, .f32⟩
  | .hbm, ⟨7, _⟩ => ⟨S65536x16x16, .f32⟩
  | .hbm, ⟨8, _⟩ => ⟨S_, .f32⟩
  | .hbm, ⟨9, _⟩ => ⟨S65536x16x16, .f32⟩
  | .hbm, ⟨10, _⟩ => ⟨S65536x16x16, .f32⟩
  | .hbm, ⟨11, _⟩ => ⟨S16x16, .i32⟩
  | .hbm, ⟨12, _⟩ => ⟨S16x16, .i32⟩
  | .hbm, ⟨13, _⟩ => ⟨S_, .i32⟩
  | .hbm, ⟨14, _⟩ => ⟨S16x16, .i32⟩
  | .hbm, ⟨15, _⟩ => ⟨S16x16, .i32⟩
  | .hbm, ⟨16, _⟩ => ⟨S16x16, .i1⟩
  | .hbm, ⟨17, _⟩ => ⟨S16x16, .f32⟩
  | .hbm, ⟨18, _⟩ => ⟨S1x16x16, .f32⟩
  | .hbm, ⟨19, _⟩ => ⟨S65536x16x16, .f32⟩
  | .hbm, ⟨20, _⟩ => ⟨S65536x16x16, .f32⟩
  | .hbm, ⟨21, _⟩ => ⟨S65536x16x16, .f32⟩
  | .hbm, ⟨22, _⟩ => ⟨S65536x16x16, .f32⟩
  | .hbm, ⟨23, _⟩ => ⟨S65536x16x16, .f32⟩
  | .hbm, ⟨24, _⟩ => ⟨S65536x16x16, .f32⟩
  | _, _ => ⟨S65536x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]

class Facts₀ : Prop where
  shapeCasts_S768x16x16_S768x256 : S768x16x16.ShapeCasts S768x256
  shapeCasts_S65536x256_S65536x16x16 : S65536x256.ShapeCasts S65536x16x16
  bcast_S1x16x16_S65536x16x16_0_1_2 : S1x16x16.BroadcastsInDim S65536x16x16 (![0, 1, 2] : Fin 3 → Fin S65536x16x16.rank)
  bcast_S_S65536x16x16 : S_.BroadcastsInDim S65536x16x16 (![] : Fin 0 → Fin S65536x16x16.rank)
  bcast_S_S16x16 : S_.BroadcastsInDim S16x16 (![] : Fin 0 → Fin S16x16.rank)
  bcast_S16x16_S1x16x16_1_2 : S16x16.BroadcastsInDim S1x16x16 (![1, 2] : Fin 2 → Fin S1x16x16.rank)
  dot_S65536x768_S768x256_S65536x256_1_0_0_1_n_n_wf : DotDims.WF S65536x768 S768x256 S65536x256 [1] [0] [0] [1] [] []
  dot_S65536x16x16_S65536x16x16_S65536x16x16_2_1_1_2_0_0_wf : DotDims.WF S65536x16x16 S65536x16x16 S65536x16x16 [2] [1] [1] [2] [0] [0]

variable [Facts₀]

def dot_S65536x768_S768x256_S65536x256_1_0_0_1_n_n : DotDims S65536x768 S768x256 S65536x256 where
  lhsContracting := [1]
  rhsContracting := [0]
  lhsNonContracting := [0]
  rhsNonContracting := [1]
  lhsBatch := []
  rhsBatch := []
  wf := dot_S65536x768_S768x256_S65536x256_1_0_0_1_n_n_wf
def dot_S65536x16x16_S65536x16x16_S65536x16x16_2_1_1_2_0_0 : DotDims S65536x16x16 S65536x16x16 S65536x16x16 where
  lhsContracting := [2]
  rhsContracting := [1]
  lhsNonContracting := [1]
  rhsNonContracting := [2]
  lhsBatch := [0]
  rhsBatch := [0]
  wf := dot_S65536x16x16_S65536x16x16_S65536x16x16_2_1_1_2_0_0_wf

class Facts : Prop extends Facts₀ where

variable [Facts]
-- ==== Proof.Squaring.lean ====
/-
  ONE SQUARING OF A STACK OF 16 × 16 MATRICES over the extended reals, and its partial sums.

  A stack `A` of `n` matrices is a function of `(p, i, k)`; its square is, matrix by matrix,
  `(A·A)[p, i, k] = Σ_j A[p, i, j] · A[p, j, k]`. The sum's first `o` terms are `part A o`; they start at the zero
  stack, grow by one outer-product term `A[p, i, o] · A[p, o, k]` at a time, and after sixteen terms are the square. Only
  commutativity and associativity of addition are used, which hold on the extended reals at the infinities too.

  Taking the rows `base, …, base + n − 1` of a taller stack commutes with squaring, because a matrix's square reads no
  other matrix of the stack.
-/
import Idealize.ShloMosaic.PureOps.Ideal
import Idealize.ShloMosaic.Lib.ValueIdx

noncomputable section

open scoped BigOperators

namespace Cert.Squaring

open Idealize.ShloMosaic Idealize.ShloMosaic.ValueIdx

/-- A stack of `n` matrices of extended reals, 16 × 16 each. -/
abbrev Stack (n : ℕ) : Type := (⟨3, ![n, 16, 16]⟩ : Shape).Idx → EReal

/-- The `j`-th term of entry `(i, k)` of matrix `p`'s square. -/
abbrev term {n : ℕ} (A : Stack n) (y : (⟨3, ![n, 16, 16]⟩ : Shape).Idx) (j : Fin 16) : EReal :=
  A (ix3 (y 0) (y 1) j) * A (ix3 (y 0) j (y 2))

/-- Every matrix of the stack squared. -/
def sq {n : ℕ} (A : Stack n) : Stack n := fun y => ∑ j : Fin 16, term A y j

/-- The first `o` terms of every entry of the square. -/
def part {n : ℕ} (A : Stack n) (o : ℕ) : Stack n :=
  fun y => ∑ j ∈ (Finset.univ : Finset (Fin 16)).filter (fun j => j.val < o), term A y j

/-- No term yet: the zero stack. -/
theorem part_zero {n : ℕ} (A : Stack n) : part A 0 = fun _ => 0 := by
  funext y
  unfold part
  rw [Finset.filter_false_of_mem (fun j _ => Nat.not_lt_zero j.val), Finset.sum_empty]

/-- One more term: the `o`-th outer product. -/
theorem part_succ {n : ℕ} (A : Stack n) (o : ℕ) (ho : o < 16) :
    part A (o + 1) = fun y => part A o y + term A y ⟨o, ho⟩ := by
  funext y
  unfold part
  have hset : (Finset.univ : Finset (Fin 16)).filter (fun j => j.val < o + 1)
      = insert (⟨o, ho⟩ : Fin 16) ((Finset.univ : Finset (Fin 16)).filter (fun j => j.val < o)) := by
    ext j
    simp only [Finset.mem_filter, Finset.mem_univ, true_and, Finset.mem_insert, Fin.ext_iff]
    omega
  have hnot : (⟨o, ho⟩ : Fin 16) ∉ (Finset.univ : Finset (Fin 16)).filter (fun j => j.val < o) := by
    simp only [Finset.mem_filter, Finset.mem_univ, true_and, Nat.lt_irrefl, not_false_eq_true]
  rw [hset, Finset.sum_insert hnot, add_comm]

/-- All sixteen terms: the square. -/
theorem part_all {n : ℕ} (A : Stack n) : part A 16 = sq A := by
  funext y
  unfold part sq
  rw [Finset.filter_true_of_mem (fun j _ => j.isLt)]

/-- The rows `base, …, base + n − 1` of a stack of `N` matrices. -/
def rows {N n : ℕ} (base : ℕ) (hb : base + n ≤ N) (A : Stack N) : Stack n :=
  fun y => A (ix3 ⟨base + (y 0).val, by have h : (y 0).val < n := (y 0).isLt; omega⟩ (y 1) (y 2))

/-- Squaring reads one matrix at a time, so it commutes with taking a block of rows. -/
theorem sq_rows {N n : ℕ} (base : ℕ) (hb : base + n ≤ N) (A : Stack N) :
    sq (rows base hb A) = rows base hb (sq A) := rfl

end Cert.Squaring

end
-- ==== Proof.LibRank3Axes.lean ====
/-
  A RANK-3 ARRAY `[a, b, c]` read at an index given by coordinates, for the three layout steps that single out or
  forget ONE of its outer axes:

  • a slice along the LAST axis from offset `o` reads, at `(i, j, t)`, the operand at `(i, j, o + t)` (the companion of
    the library's middle-axis slice);
  • a broadcast of `[a, b, 1]` to `[a, b, c]` reads, at `(i, j, t)`, the operand at `(i, j, 0)`: the last coordinate is
    forgotten;
  • a broadcast of `[1, b, c]` to `[a, b, c]` reads, at `(t, i, j)`, the operand at `(0, i, j)`: the first coordinate is
    forgotten.

  A kept axis whose extent happens to be 1 has the coordinate 0 in any case, so no side condition on the extents is needed.
  General in the extents and in the element type; nothing here mentions a program.
-/
import Idealize.ShloMosaic.Lib.Pipeline.Value
import Idealize.ShloMosaic.Lib.ValueIdx

namespace Cert.LibRank3Axes

open Idealize.ShloMosaic Idealize.ShloMosaic.ValueIdx

variable {α : Type}

/-- A rank-3 array cut along its last axis from `o` reads, at `(i, j, t)`, the source at `(i, j, k)` with `k = o + t`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (i : Fin n0) (j : Fin n1) (t : Fin m) (k : Fin n2) (hk : k.val = o + t.val) :
    extractStridedSlice ⟨3, ![n0, n1, m]⟩ ![0, 0, o] X h (ix3 i j t) = X (ix3 i j k) :=
  extractStridedSlice_apply _ _ _ _ _ (fun ax => by
    match ax with
    | ⟨0, _⟩ => exact (Nat.zero_add _).symm
    | ⟨1, _⟩ => exact (Nat.zero_add _).symm
    | ⟨2, _⟩ => exact hk)

/-- An `[a, b, 1]` array broadcast to `[a, b, c]` reads, at `(i, j, t)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (t : Fin c) :
    broadcastTo ⟨3, ![a, b, c]⟩ v h (ix3 i j t) = v (ix3 i j (0 : Fin 1)) := by
  refine broadcastTo_apply v h (ix3 i j t) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A `[1, b, c]` array broadcast to `[a, b, c]` reads, at `(t, i, j)`, the operand at `(0, i, j)`. -/
theorem broadcastTo_1bc_abc_apply {a b c : ℕ} (v : (⟨3, ![1, b, c]⟩ : Shape).Idx → α)
    (h : (⟨3, ![1, b, c]⟩ : Shape).Broadcasts ⟨3, ![a, b, c]⟩) (t : Fin a) (i : Fin b) (j : Fin c) :
    broadcastTo ⟨3, ![a, b, c]⟩ v h (ix3 t i j) = v (ix3 (0 : Fin 1) i j) := by
  refine broadcastTo_apply v h (ix3 t i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

end Cert.LibRank3Axes
-- ==== Proof.LibMiddleAxis.lean ====
/-
  A UNIT AXIS IN THE MIDDLE, read at an index given by coordinates: the two layout steps by which a matrix `[a, b]` is
  spread along a new middle axis to `[a, c, b]` (`v[:, None, :]` broadcast against an array with a middle axis).

  • The shape cast `[a, b] → [a, 1, b]` keeps the row-major position: entry `(i, 0, j)` of the result is entry `(i, j)` of
    the operand, because `(i · 1 + 0) · b + j = i · b + j`.
  • The broadcast `[a, 1, b] → [a, c, b]` reads, at `(i, t, j)`, the operand at `(i, 0, j)`: the middle coordinate is
    forgotten, the outer ones kept (when `a` or `b` is itself 1 the kept coordinate is 0 in any case).
  • Together: the spread matrix at `(i, t, j)` is the matrix at `(i, j)`, whatever `t`.

  General in the extents and in the element type; nothing here mentions a program.
-/
import Idealize.ShloMosaic.Lib.Pipeline.Value
import Idealize.ShloMosaic.Lib.ValueIdx

namespace Cert.LibMiddleAxis

open Idealize.ShloMosaic Idealize.ShloMosaic.ValueIdx

variable {α : Type}

/-- An `[a, b]` array cast to `[a, 1, b]` reads, at `(i, u, j)`, the operand at `(i, j)`: the two indices have the same
    row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- An `[a, 1, b]` array broadcast to `[a, c, b]` reads, at `(i, t, j)`, the operand at `(i, 0, j)`. -/
theorem broadcastTo_a1b_acb_apply {a c b : ℕ} (v : (⟨3, ![a, 1, b]⟩ : Shape).Idx → α)
    (h : (⟨3, ![a, 1, b]⟩ : Shape).Broadcasts ⟨3, ![a, c, b]⟩) (i : Fin a) (t : Fin c) (j : Fin b) :
    broadcastTo ⟨3, ![a, c, b]⟩ v h (ix3 i t j) = v (ix3 i (0 : Fin 1) j) := by
  refine broadcastTo_apply v h (ix3 i t j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A matrix spread along a new middle axis reads, at `(i, t, j)`, the matrix at `(i, j)`. -/
theorem spread_middle_apply {a c b : ℕ} (x : (⟨2, ![a, b]⟩ : Shape).Idx → α)
    (hc : (⟨2, ![a, b]⟩ : Shape).ShapeCasts ⟨3, ![a, 1, b]⟩) (hb : (⟨3, ![a, 1, b]⟩ : Shape).Broadcasts ⟨3, ![a, c, b]⟩)
    (i : Fin a) (t : Fin c) (j : Fin b) :
    broadcastTo ⟨3, ![a, c, b]⟩ (shapeCast ⟨3, ![a, 1, b]⟩ x hc) hb (ix3 i t j) = x (ix2 i j) :=
  (broadcastTo_a1b_acb_apply _ hb i t j).trans (shapeCast_ab_a1b_apply x hc i 0 j)

end Cert.LibMiddleAxis
-- ==== Proof.OuterStep.lean ====
/-
  ONE STEP OF A SQUARING DONE BY OUTER PRODUCTS, as the vector operations compute it.

  For a stack `A` of 16 × 16 matrices, column `o` of every matrix (a slice along the last axis, spread back along it) times
  row `o` of every matrix (a slice along the middle axis, spread back along it) is, at `(p, i, k)`,
  `A[p, i, o] · A[p, o, k]`: the `o`-th term of the square's entry. Adding it to the first `o` terms gives the first
  `o + 1`; adding the `0`-th to the zero stack gives the first one. That `o` is below 16 is part of what it means for the
  slice to lie inside the stack, so the step carries no side condition of its own.
-/
import proofs.«125091_j29832842838337_2_alg».proof.Proof.Squaring
import proofs.«125091_j29832842838337_2_alg».proof.Proof.LibRank3Axes
import proofs.«125091_j29832842838337_2_alg».proof.Proof.LibMiddleAxis
import Idealize.ShloMosaic.Lib.ValueLayout
import Idealize.ShloMosaic.PureOps.Ideal.Laws

noncomputable section

namespace Cert.Squaring

open Idealize.ShloMosaic Idealize.ShloMosaic.ValueIdx

/-- Column `o` spread along the last axis times row `o` spread along the middle axis is the `o`-th term of the square. -/
theorem outer_apply {n : ℕ} (A : Stack n) (o : ℕ)
    (h1 : (⟨3, ![n, 16, 16]⟩ : Shape).Slices ![0, 0, o] ⟨3, ![n, 16, 1]⟩)
    (hb1 : (⟨3, ![n, 16, 1]⟩ : Shape).Broadcasts ⟨3, ![n, 16, 16]⟩)
    (h2 : (⟨3, ![n, 16, 16]⟩ : Shape).Slices ![0, o, 0] ⟨3, ![n, 1, 16]⟩)
    (hb2 : (⟨3, ![n, 1, 16]⟩ : Shape).Broadcasts ⟨3, ![n, 16, 16]⟩)
    (ho : o < 16) (y : (⟨3, ![n, 16, 16]⟩ : Shape).Idx) :
    mulf (F := Ideal) (φ := .f32)
        (broadcastTo ⟨3, ![n, 16, 16]⟩ (extractStridedSlice ⟨3, ![n, 16, 1]⟩ ![0, 0, o] A h1) hb1)
        (broadcastTo ⟨3, ![n, 16, 16]⟩ (extractStridedSlice ⟨3, ![n, 1, 16]⟩ ![0, o, 0] A h2) hb2) y
      = term A y ⟨o, ho⟩ := by
  obtain ⟨p, i, k, rfl⟩ : ∃ (p : Fin n) (i k : Fin 16), y = ix3 p i k := ⟨y 0, y 1, y 2, eq_ix3 y⟩
  rw [mulf_apply, Cert.LibRank3Axes.broadcastTo_ab1_abc_apply, Cert.LibMiddleAxis.broadcastTo_a1b_acb_apply,
    Cert.LibRank3Axes.slice3_axis2_apply o A h1 p i 0 ⟨o, ho⟩ (by simp),
    slice3_axis1_apply o A h2 p 0 k ⟨o, ho⟩ (by simp)]
  rfl

/-- The first `o` terms plus the `o`-th outer product are the first `o + 1` terms. -/
theorem step_eq {n : ℕ} (A : Stack n) (o : ℕ)
    (h1 : (⟨3, ![n, 16, 16]⟩ : Shape).Slices ![0, 0, o] ⟨3, ![n, 16, 1]⟩)
    (hb1 : (⟨3, ![n, 16, 1]⟩ : Shape).Broadcasts ⟨3, ![n, 16, 16]⟩)
    (h2 : (⟨3, ![n, 16, 16]⟩ : Shape).Slices ![0, o, 0] ⟨3, ![n, 1, 16]⟩)
    (hb2 : (⟨3, ![n, 1, 16]⟩ : Shape).Broadcasts ⟨3, ![n, 16, 16]⟩) :
    addf (F := Ideal) (φ := .f32) (part A o)
        (mulf (broadcastTo ⟨3, ![n, 16, 16]⟩ (extractStridedSlice ⟨3, ![n, 16, 1]⟩ ![0, 0, o] A h1) hb1)
          (broadcastTo ⟨3, ![n, 16, 16]⟩ (extractStridedSlice ⟨3, ![n, 1, 16]⟩ ![0, o, 0] A h2) hb2))
      = part A (o + 1) := by
  have ho : o < 16 := h1.2 ⟨2, Nat.lt_succ_self 2⟩
  funext y
  rw [part_succ A o ho, addf_apply, outer_apply A o h1 hb1 h2 hb2 ho y]

/-- The zero stack plus the `0`-th outer product is the first term. -/
theorem first_eq {n : ℕ} (A : Stack n)
    (h1 : (⟨3, ![n, 16, 16]⟩ : Shape).Slices ![0, 0, 0] ⟨3, ![n, 16, 1]⟩)
    (hb1 : (⟨3, ![n, 16, 1]⟩ : Shape).Broadcasts ⟨3, ![n, 16, 16]⟩)
    (h2 : (⟨3, ![n, 16, 16]⟩ : Shape).Slices ![0, 0, 0] ⟨3, ![n, 1, 16]⟩)
    (hb2 : (⟨3, ![n, 1, 16]⟩ : Shape).Broadcasts ⟨3, ![n, 16, 16]⟩) :
    addf (F := Ideal) (φ := .f32) (broadcast ⟨3, ![n, 16, 16]⟩ (Scalar.ofBits (F := Ideal) .f32 0x00000000#32))
        (mulf (broadcastTo ⟨3, ![n, 16, 16]⟩ (extractStridedSlice ⟨3, ![n, 16, 1]⟩ ![0, 0, 0] A h1) hb1)
          (broadcastTo ⟨3, ![n, 16, 16]⟩ (extractStridedSlice ⟨3, ![n, 1, 16]⟩ ![0, 0, 0] A h2) hb2))
      = part A 1 := by
  have hz : (broadcast ⟨3, ![n, 16, 16]⟩ (Scalar.ofBits (F := Ideal) .f32 0x00000000#32) : Stack n) = part A 0 := by
    rw [part_zero]
    funext y
    exact Ideal.ofBits_zero_f32
  rw [hz]
  exact step_eq A 0 h1 hb1 h2 hb2

end Cert.Squaring

end
-- ==== Proof.KernelSquarings.lean ====
/-
  THE KERNEL BODY'S FOUR SQUARINGS, payload by payload.

  After its affine part the body squares a stack `A` of 1024 matrices four times, each squaring a run of sixteen
  accumulation steps `acc ← acc + A[:, :, j:j+1] · A[:, j:j+1, :]` from the zero stack. The body is cut into pieces at
  fixed positions, so a piece ends in the middle of a squaring and hands on the current stack, the sum accumulated so far
  and the next column and row (sometimes already spread back to full width). Each equation below says what one piece
  computes when it is handed exactly those values: the first `o` terms of the square grow to the first `o'` terms
  (`Cert.Squaring.part`), a finished run is the square (`Cert.Squaring.sq`), and the last piece stores the fourth square
  flattened to 1024 × 256. Every equation is the step law of OuterStep.lean applied along the piece.
-/
import proofs.«125091_j29832842838337_2_alg».proof.Proof.Gen.KernelIdeal.Skeleton
import proofs.«125091_j29832842838337_2_alg».proof.Proof.OuterStep

set_option maxRecDepth 16384

noncomputable section

namespace Cert.KernelIdeal.Squarings

open Idealize.ShloMosaic Cert.KernelIdeal Cert.KernelIdeal.Gen Cert.Squaring

/-- A stack of 1024 matrices, as the body's vectors are typed. -/
abbrev M : Type := FVec Ideal S1024x16x16 .f32

/-- The step law over the body's shapes. -/
theorem step (A : M) (o : ℕ) (h1 : S1024x16x16.Slices ![0, 0, o] S1024x16x1) (hb1 : S1024x16x1.Broadcasts S1024x16x16)
    (h2 : S1024x16x16.Slices ![0, o, 0] S1024x1x16) (hb2 : S1024x1x16.Broadcasts S1024x16x16) :
    addf (part (n := 1024) A o)
        (mulf (broadcastTo S1024x16x16 (extractStridedSlice S1024x16x1 ![0, 0, o] A h1) hb1)
          (broadcastTo S1024x16x16 (extractStridedSlice S1024x1x16 ![0, o, 0] A h2) hb2))
      = part (n := 1024) A (o + 1) :=
  step_eq A o h1 hb1 h2 hb2

/-- The first step, from the zero stack. -/
theorem first (A : M) (h1 : S1024x16x16.Slices ![0, 0, 0] S1024x16x1) (hb1 : S1024x16x1.Broadcasts S1024x16x16)
    (h2 : S1024x16x16.Slices ![0, 0, 0] S1024x1x16) (hb2 : S1024x1x16.Broadcasts S1024x16x16) :
    addf (broadcast S1024x16x16 (Scalar.ofBits (F := Ideal) .f32 0x00000000#32))
        (mulf (broadcastTo S1024x16x16 (extractStridedSlice S1024x16x1 ![0, 0, 0] A h1) hb1)
          (broadcastTo S1024x16x16 (extractStridedSlice S1024x1x16 ![0, 0, 0] A h2) hb2))
      = part (n := 1024) A 1 :=
  first_eq A h1 hb1 h2 hb2

variable (v0 : Vec Ideal S1024x768 .f32) (v2 : Vec Ideal S768x256 .bf16) (v6 : Vec Ideal S1x16x16 .f32)

/-! ## The first squaring -/

/-- Terms 0–3 of the first square. -/
theorem pay3_eq : k0_pay3 v0 v2 v6 = part (n := 1024) (k0_pay2 v0 v2 v6) 4 := by
  unfold k0_pay3
  simp only [first, step, Nat.reduceAdd]

/-- Terms 4–13. -/
theorem pay6_eq : k0_pay6 (k0_pay2 v0 v2 v6) (part (n := 1024) (k0_pay2 v0 v2 v6) 4) (k0_pay4 v0 v2 v6) (k0_pay5 v0 v2 v6)
    = part (n := 1024) (k0_pay2 v0 v2 v6) 14 := by
  unfold k0_pay6 k0_pay4 k0_pay5
  simp only [step, Nat.reduceAdd]

/-- Terms 14 and 15: the first square. -/
theorem pay9_eq (A : M) : k0_pay9 A (part (n := 1024) A 14) (k0_pay7 A) (k0_pay8 A) = sq (n := 1024) A := by
  unfold k0_pay9 k0_pay7 k0_pay8
  simp only [step, Nat.reduceAdd, part_all]

/-! ## The second squaring -/

/-- Terms 0–7 of the second square. -/
theorem pay10_eq (A : M) : k0_pay10 A (part (n := 1024) A 14) (k0_pay7 A) (k0_pay8 A) = part (n := 1024) (sq (n := 1024) A) 8 := by
  unfold k0_pay10
  simp only [pay9_eq, first, step, Nat.reduceAdd]

/-- Terms 8–15: the second square. -/
theorem pay11_eq (B : M) : k0_pay11 B (part (n := 1024) B 8) = sq (n := 1024) B := by
  unfold k0_pay11
  simp only [step, Nat.reduceAdd, part_all]

/-! ## The third squaring -/

/-- Term 0 of the third square. -/
theorem pay12_eq (B : M) : k0_pay12 B (part (n := 1024) B 8) = part (n := 1024) (sq (n := 1024) B) 1 := by
  unfold k0_pay12
  simp only [pay11_eq, first]

/-- Column 1 of the second square, spread to full width. -/
theorem pay13_eq (B : M) : k0_pay13 B (part (n := 1024) B 8)
    = broadcastTo S1024x16x16 (extractStridedSlice S1024x16x1 ![0, 0, 1] (sq (n := 1024) B) slices_S1024x16x16_o0_0_1_S1024x16x1)
        broadcasts_S1024x16x1_S1024x16x16 := by
  unfold k0_pay13
  simp only [pay11_eq]

/-- Row 1 of the second square, spread to full width. -/
theorem pay14_eq (B : M) : k0_pay14 B (part (n := 1024) B 8)
    = broadcastTo S1024x16x16 (extractStridedSlice S1024x1x16 ![0, 1, 0] (sq (n := 1024) B) slices_S1024x16x16_o0_1_0_S1024x1x16)
        broadcasts_S1024x1x16_S1024x16x16 := by
  unfold k0_pay14
  simp only [pay11_eq]

/-- Terms 1–10. -/
theorem pay15_eq (C : M) : k0_pay15 C (part (n := 1024) C 1)
      (broadcastTo S1024x16x16 (extractStridedSlice S1024x16x1 ![0, 0, 1] C slices_S1024x16x16_o0_0_1_S1024x16x1)
        broadcasts_S1024x16x1_S1024x16x16)
      (broadcastTo S1024x16x16 (extractStridedSlice S1024x1x16 ![0, 1, 0] C slices_S1024x16x16_o0_1_0_S1024x1x16)
        broadcasts_S1024x1x16_S1024x16x16)
    = part (n := 1024) C 11 := by
  unfold k0_pay15
  simp only [step, Nat.reduceAdd]

/-- Terms 11–15: the third square. -/
theorem pay18_eq (C : M) : k0_pay18 C (part (n := 1024) C 11) (k0_pay16 C) (k0_pay17 C) = sq (n := 1024) C := by
  unfold k0_pay18 k0_pay16 k0_pay17
  simp only [step, Nat.reduceAdd, part_all]

/-! ## The fourth squaring -/

/-- Terms 0–4 of the fourth square. -/
theorem pay19_eq (C : M) : k0_pay19 C (part (n := 1024) C 11) (k0_pay16 C) (k0_pay17 C) = part (n := 1024) (sq (n := 1024) C) 5 := by
  unfold k0_pay19
  simp only [pay18_eq, first, step, Nat.reduceAdd]

/-- Column 5 of the third square. -/
theorem pay20_eq (C : M) : k0_pay20 C (part (n := 1024) C 11) (k0_pay16 C) (k0_pay17 C)
    = extractStridedSlice S1024x16x1 ![0, 0, 5] (sq (n := 1024) C) slices_S1024x16x16_o0_0_5_S1024x16x1 := by
  unfold k0_pay20
  simp only [pay18_eq]

/-- Row 5 of the third square. -/
theorem pay21_eq (C : M) : k0_pay21 C (part (n := 1024) C 11) (k0_pay16 C) (k0_pay17 C)
    = extractStridedSlice S1024x1x16 ![0, 5, 0] (sq (n := 1024) C) slices_S1024x16x16_o0_5_0_S1024x1x16 := by
  unfold k0_pay21
  simp only [pay18_eq]

/-- Terms 5–14. -/
theorem pay22_eq (D : M) : k0_pay22 D (part (n := 1024) D 5)
      (extractStridedSlice S1024x16x1 ![0, 0, 5] D slices_S1024x16x16_o0_0_5_S1024x16x1)
      (extractStridedSlice S1024x1x16 ![0, 5, 0] D slices_S1024x16x16_o0_5_0_S1024x1x16)
    = part (n := 1024) D 15 := by
  unfold k0_pay22
  simp only [step, Nat.reduceAdd]

/-- Term 15, and the fourth square flattened to 1024 × 256 for the store. -/
theorem pay1_eq (D : M) : k0_pay1 (part (n := 1024) D 15) (k0_pay23 D) (k0_pay24 D)
    = shapeCast S1024x256 (sq (n := 1024) D) shapeCasts_S1024x16x16_S1024x256 := by
  unfold k0_pay1 k0_pay23 k0_pay24
  simp only [step, Nat.reduceAdd, part_all]

end Cert.KernelIdeal.Squarings

end
-- ==== Proof.Affine.lean ====
/-
  THE AFFINE START OF THE MATRIX EXPONENTIAL'S SCALING AND SQUARING: from a batch of feature rows `X[n, :]` (768 wide),
  weights flattened to `W[768, 256]` and one bias matrix `b[0, :, :]`, matrix `n` of the stack is

      A₀[n, i, k] = (Σ_q X[n, q] · W[q, 16 i + k] + b[0, i, k]) · s + δ(i, k),

  with `s` the float 2⁻⁴ (kept as its word: both programs carry the same word, so it is never evaluated) and `δ` the
  identity matrix. Two programs may build `δ` differently from the same comparison of a row number with a column
  number: by selecting between the words of 1.0 and 0.0, or by converting the comparison's truth bit to a float. Both
  read 1 on the diagonal and 0 off it.

  Row `n` of the stack reads row `n` of `X` only, so taking a block of rows of `X` first gives the same block of the stack.
-/
import Idealize.ShloMosaic.Lib.IdealHost
import Idealize.ShloMosaic.PureOps.Ideal.Laws
import proofs.«125091_j29832842838337_2_alg».proof.Proof.Squaring

noncomputable section

open scoped BigOperators

namespace Cert.Affine

open Idealize.ShloMosaic Idealize.ShloMosaic.ValueIdx Cert.Squaring

/-- The identity matrix's entry. -/
def eye (i k : Fin 16) : EReal := if i = k then 1 else 0

/-- Entry `(i, k)` of a 16 × 16 matrix sits at position `16 i + k` of its flattening. -/
def flat (i k : Fin 16) : Fin 256 := ⟨16 * i.val + k.val, by have := i.isLt; have := k.isLt; omega⟩

/-- The stack the squarings start from. -/
def affine {N : ℕ} (X : (⟨2, ![N, 768]⟩ : Shape).Idx → EReal) (W : (⟨2, ![768, 256]⟩ : Shape).Idx → EReal)
    (b : (⟨3, ![1, 16, 16]⟩ : Shape).Idx → EReal) : Stack N :=
  fun y => (∑ q : Fin 768, X (ix2 (y 0) q) * W (ix2 q (flat (y 1) (y 2))) + b (ix3 (0 : Fin 1) (y 1) (y 2)))
      * Ideal.ofBits .f32 0x3D800000#32 + eye (y 1) (y 2)

/-- Comparing the words of a row number and a column number below 16 decides whether they are equal. -/
theorem cmp_word (i k : Fin 16) :
    IntOp.cmpi .eq (BitVec.ofNat 32 i.val) (BitVec.ofNat 32 k.val) = if i = k then 1#1 else 0#1 := by
  revert i k
  decide

/-- The identity matrix by selecting between the words of one and zero. -/
theorem eye_select (i k : Fin 16) :
    Scalar.select (IntOp.cmpi .eq (BitVec.ofNat 32 i.val) (BitVec.ofNat 32 k.val))
      (Ideal.ofBits .f32 0x3F800000#32) (Ideal.ofBits .f32 0x00000000#32) = eye i k := by
  rw [cmp_word]
  unfold eye
  split
  · rw [select_one, Ideal.ofBits_one_f32]
  · rw [select_zero, Ideal.ofBits_zero_f32]

/-- The identity matrix by converting the truth bit of the comparison (the row number plus the zero word). -/
theorem eye_convert (i k : Fin 16) :
    FloatOps.uitofp (F := Ideal) .f32 (IntOp.cmpi .eq (IntOp.addi (BitVec.ofNat 32 i.val) 0#32) (BitVec.ofNat 32 k.val))
      = eye i k := by
  have h0 : IntOp.addi (BitVec.ofNat 32 i.val) 0#32 = BitVec.ofNat 32 i.val := BitVec.add_zero _
  rw [h0, cmp_word]
  unfold eye
  split
  · show (((1#1 : BitVec 1).toNat : ℝ) : EReal) = 1
    norm_num
  · show (((0#1 : BitVec 1).toNat : ℝ) : EReal) = 0
    norm_num

/-- A block of rows of the stack is the stack of that block of feature rows. -/
theorem rows_affine {N n : ℕ} (base : ℕ) (hb : base + n ≤ N) (X : (⟨2, ![N, 768]⟩ : Shape).Idx → EReal)
    (W : (⟨2, ![768, 256]⟩ : Shape).Idx → EReal) (b : (⟨3, ![1, 16, 16]⟩ : Shape).Idx → EReal) :
    rows base hb (affine X W b)
      = affine (fun z : (⟨2, ![n, 768]⟩ : Shape).Idx =>
          X (ix2 ⟨base + (z 0).val, by have h : (z 0).val < n := (z 0).isLt; omega⟩ (z 1))) W b := rfl

end Cert.Affine

end
-- ==== Proof.KernelAffine.lean ====
/-
  THE KERNEL BODY'S AFFINE PART, read at an index: the stack its first squaring starts from is `Cert.Affine.affine` of the
  three loaded blocks.

  The feature block `[1024, 768]` is narrowed to bf16 (no change over the extended reals), multiplied by the weight block
  `[768, 256]` into a zero accumulator — entry `(p, c)` is `Σ_q x[p, q] · w[q, c]` —, and the product is viewed as
  `[1024, 16, 16]`: entry `(p, i, k)` of the view is entry `(p, 16 i + k)`, the same row-major position. The bias block
  `[1, 16, 16]` is repeated along the first axis, the sum is scaled by the word of 2⁻⁴, and the identity matrix — a select
  on "row number = column number" between the words of one and zero, given a unit first axis and repeated along it — is added.
-/
import proofs.«125091_j29832842838337_2_alg».proof.Proof.Gen.KernelIdeal.Skeleton
import proofs.«125091_j29832842838337_2_alg».proof.Proof.Affine
import proofs.«125091_j29832842838337_2_alg».proof.Proof.LibRank3Axes
import Idealize.ShloMosaic.Lib.ValueLayout
import Idealize.ShloMosaic.PureOps.Ideal.Laws

set_option maxRecDepth 16384

noncomputable section

open scoped BigOperators

namespace Cert.KernelIdeal.AffinePart

open Idealize.ShloMosaic Idealize.ShloMosaic.ValueIdx Cert.KernelIdeal Cert.KernelIdeal.Gen Cert.Squaring Cert.Affine

/-! ## The product's operand indices: a row of the features against a column of the weights -/

theorem lhs_row (j : S1024x256.Idx) (q : dot_S1024x768_S768x256_S1024x256_1_0_0_1_n_n.contr.Idx) : (dot_S1024x768_S768x256_S1024x256_1_0_0_1_n_n.lhsIdx j q 0).val = (j 0).val := by
  unfold DotDims.lhsIdx
  rw [dif_neg (show ¬(0 : Fin S1024x768.rank) ∈ dot_S1024x768_S768x256_S1024x256_1_0_0_1_n_n.lhsBatch by decide),
    dif_pos (show (0 : Fin S1024x768.rank) ∈ dot_S1024x768_S768x256_S1024x256_1_0_0_1_n_n.lhsNonContracting by decide)]
  rfl

theorem rhs_col (j : S1024x256.Idx) (q : dot_S1024x768_S768x256_S1024x256_1_0_0_1_n_n.contr.Idx) : (dot_S1024x768_S768x256_S1024x256_1_0_0_1_n_n.rhsIdx j q 1).val = (j 1).val := by
  unfold DotDims.rhsIdx
  rw [dif_neg (show ¬(1 : Fin S768x256.rank) ∈ dot_S1024x768_S768x256_S1024x256_1_0_0_1_n_n.rhsBatch by decide),
    dif_pos (show (1 : Fin S768x256.rank) ∈ dot_S1024x768_S768x256_S1024x256_1_0_0_1_n_n.rhsNonContracting by decide)]
  rfl

/-- The block product into a zero accumulator: entry `(p, c)` is the sum over the 768 shared positions. -/
theorem product_apply (l : FVec Ideal S1024x768 .bf16) (r : FVec Ideal S768x256 .bf16) (p : Fin 1024) (c : Fin 256) :
    matmul dot_S1024x768_S768x256_S1024x256_1_0_0_1_n_n none l r (constant S1024x256 .f32 0x00000000#32) (ix2 p c)
      = ∑ q : Fin 768, l (ix2 p q) * r (ix2 q c) := by
  simp only [matmul]
  rw [Ideal.matmul_constant_zero_apply, ← Equiv.sum_comp (contrEquiv1 dot_S1024x768_S768x256_S1024x256_1_0_0_1_n_n 768 rfl rfl).symm]
  refine Finset.sum_congr rfl fun q _ => ?_
  have hq := contrEquiv1_symm_val dot_S1024x768_S768x256_S1024x256_1_0_0_1_n_n 768 rfl rfl q
  have el : dot_S1024x768_S768x256_S1024x256_1_0_0_1_n_n.lhsIdx (ix2 p c) ((contrEquiv1 dot_S1024x768_S768x256_S1024x256_1_0_0_1_n_n 768 rfl rfl).symm q) = ix2 p q := funext fun a => Fin.ext (by
    match a with
    | ⟨0, _⟩ => exact lhs_row _ _
    | ⟨1, _⟩ => exact (dot_S1024x768_S768x256_S1024x256_1_0_0_1_n_n.lhsIdx_val_of_single rfl _ _).trans hq)
  have er : dot_S1024x768_S768x256_S1024x256_1_0_0_1_n_n.rhsIdx (ix2 p c) ((contrEquiv1 dot_S1024x768_S768x256_S1024x256_1_0_0_1_n_n 768 rfl rfl).symm q) = ix2 q c := funext fun a => Fin.ext (by
    match a with
    | ⟨0, _⟩ => exact (dot_S1024x768_S768x256_S1024x256_1_0_0_1_n_n.rhsIdx_val_of_single rfl _ _).trans hq
    | ⟨1, _⟩ => exact rhs_col _ _)
  rw [el, er]

/-- The body's affine part is the specification's, of the three loaded blocks. -/
theorem pay2_eq (v0 : Vec Ideal S1024x768 .f32) (v2 : Vec Ideal S768x256 .bf16) (v6 : Vec Ideal S1x16x16 .f32) :
    k0_pay2 v0 v2 v6 = affine (N := 1024) v0 v2 v6 := by
  funext y
  obtain ⟨p, i, k, rfl⟩ : ∃ (p : Fin 1024) (i k : Fin 16), y = ix3 p i k := ⟨y 0, y 1, y 2, eq_ix3 y⟩
  -- the product, viewed as a stack
  have e5 : shapeCast S1024x16x16
        (matmul (F := Ideal) (φ₁ := .bf16) (φ₂ := .bf16) dot_S1024x768_S768x256_S1024x256_1_0_0_1_n_n none (truncf (F := Ideal) (φ := .f32) .bf16 v0 bitsLt_bf16_f32)
          (shapeCast S768x256 v2 shapeCasts_S768x256_S768x256) (constant (F := Ideal) S1024x256 .f32 0x00000000#32))
        shapeCasts_S1024x256_S1024x16x16 (ix3 p i k)
      = ∑ q : Fin 768, v0 (ix2 p q) * v2 (ix2 q (flat i k)) := by
    rw [shapeCast_apply _ shapeCasts_S1024x256_S1024x16x16 (ix3 p i k) (ix2 p (flat i k)) (by
          rw [Shape.rowMajor_val_two, Shape.rowMajor_val_three]
          show p.val * 256 + (16 * i.val + k.val) = (p.val * 16 + i.val) * 16 + k.val
          omega),
      product_apply, shapeCast_self]
    rfl
  -- the bias, repeated along the first axis
  have e7 : broadcastTo S1024x16x16 v6 broadcasts_S1x16x16_S1024x16x16 (ix3 p i k) = v6 (ix3 (0 : Fin 1) i k) :=
    Cert.LibRank3Axes.broadcastTo_1bc_abc_apply v6 broadcasts_S1x16x16_S1024x16x16 p i k
  -- the identity matrix, repeated along the first axis
  have e18 : broadcastTo S1024x16x16
        (shapeCast S1x16x16
          (select (cmpi .eq (iota .tc S16x16 32 [0] iota_S16x16_d0_w32) (iota .tc S16x16 32 [1] iota_S16x16_d1_w32))
            (broadcast S16x16 (Scalar.ofBits (F := Ideal) .f32 0x3F800000#32))
            (broadcast S16x16 (Scalar.ofBits (F := Ideal) .f32 0x00000000#32)))
          shapeCasts_S16x16_S1x16x16)
        broadcasts_S1x16x16_S1024x16x16 (ix3 p i k) = eye i k := by
    rw [Cert.LibRank3Axes.broadcastTo_1bc_abc_apply, shapeCast_ab_1ab_apply, select_apply]
    show Scalar.select (IntOp.cmpi .eq (iota .tc S16x16 32 [0] iota_S16x16_d0_w32 (ix2 i k))
        (iota .tc S16x16 32 [1] iota_S16x16_d1_w32 (ix2 i k))) (Ideal.ofBits .f32 0x3F800000#32) (Ideal.ofBits .f32 0x00000000#32) = _
    rw [iota_single_apply, iota_single_apply]
    exact eye_select i k
  show (shapeCast S1024x16x16 _ shapeCasts_S1024x256_S1024x16x16 (ix3 p i k)
        + broadcastTo S1024x16x16 v6 broadcasts_S1x16x16_S1024x16x16 (ix3 p i k)) * Ideal.ofBits .f32 0x3D800000#32
      + broadcastTo S1024x16x16 _ broadcasts_S1x16x16_S1024x16x16 (ix3 p i k) = _
  rw [e5, e7, e18]
  rfl

end Cert.KernelIdeal.AffinePart

end
-- ==== Proof.KernelBlock.lean ====
/-
  WHAT ONE GRID POINT'S BODY LEAVES IN THE OUTPUT BUFFER: the fourth square of the affine start of the point's three
  input blocks, flattened to 1024 × 256.

  The body's one store covers the whole buffer, and its value is the composition of the body's pieces, each handing on the
  current stack, the partial sum and the next column and row. Rewriting the pieces from the inside out by their equations
  (KernelSquarings.lean) collapses every run of sixteen accumulation steps to one squaring; the innermost value is the
  affine start (KernelAffine.lean).
-/
import proofs.«125091_j29832842838337_2_alg».proof.Proof.Gen.KernelIdeal.Frame
import proofs.«125091_j29832842838337_2_alg».proof.Proof.KernelSquarings
import proofs.«125091_j29832842838337_2_alg».proof.Proof.KernelAffine

set_option maxRecDepth 16384

noncomputable section

namespace Cert.KernelIdeal.Block

open Idealize.ShloMosaic Cert.KernelIdeal Cert.KernelIdeal.Gen Cert.Squaring Cert.Affine
open Cert.KernelIdeal.Squarings Cert.KernelIdeal.AffinePart

/-- The output buffer after the body, from the three input buffers' contents. -/
theorem out_eq (x0 : Vec Ideal S1024x768 .f32) (x1 : Vec Ideal S768x256 .bf16) (x2 : Vec Ideal S1x16x16 .f32) :
    out0_3 (F := Ideal) x0 x1 x2
      = View.canon [⟨r0_3, shapeCast S1024x256
          (sq (n := 1024) (sq (n := 1024) (sq (n := 1024) (sq (n := 1024)
            (affine (N := 1024) (View.ld x0 r0_0) (View.ld x1 r0_1) (View.ld x2 r0_2))))))
          shapeCasts_S1024x16x16_S1024x256⟩] := by
  unfold out0_3
  simp only [pay3_eq, pay6_eq, pay9_eq, pay10_eq, pay11_eq, pay12_eq, pay13_eq, pay14_eq, pay15_eq, pay18_eq, pay19_eq,
    pay20_eq, pay21_eq, pay22_eq, pay1_eq]
  rw [pay2_eq]

end Cert.KernelIdeal.Block

end
-- ==== Proof.Spec.lean ====
/-
  THE RESULT BOTH PROGRAMS COMPUTE: four squarings of the affine start,

      result X W b = ((((A₀)²)²)²)²    with  A₀ = Cert.Affine.affine X (W flattened to [768, 256]) b,

  matrix by matrix over a batch of `N` feature rows — the scaling-and-squaring approximation of a matrix exponential.
  Matrix `n` of the result depends on row `n` of `X` only, so a block of rows of the result is the result of that block
  of rows.
-/
import proofs.«125091_j29832842838337_2_alg».proof.Proof.Affine
import Idealize.ShloMosaic.Lib.Pipeline.Value

noncomputable section

namespace Cert.Spec

open Idealize.ShloMosaic Idealize.ShloMosaic.ValueIdx Cert.Squaring Cert.Affine

/-- The weights `[768, 16, 16]` have as many entries as `[768, 256]`. -/
theorem flattens : (⟨3, ![768, 16, 16]⟩ : Shape).ShapeCasts ⟨2, ![768, 256]⟩ := by decide

/-- The weights with each 16 × 16 matrix flattened to a row of 256. -/
def flatW (W : (⟨3, ![768, 16, 16]⟩ : Shape).Idx → EReal) : (⟨2, ![768, 256]⟩ : Shape).Idx → EReal :=
  shapeCast ⟨2, ![768, 256]⟩ W flattens

/-- Four squarings of the affine start. -/
def result {N : ℕ} (X : (⟨2, ![N, 768]⟩ : Shape).Idx → EReal) (W : (⟨3, ![768, 16, 16]⟩ : Shape).Idx → EReal)
    (b : (⟨3, ![1, 16, 16]⟩ : Shape).Idx → EReal) : Stack N :=
  sq (sq (sq (sq (affine X (flatW W) b))))

/-- Rows `base, …, base + n − 1` of a batch of feature rows. -/
def rowsOf {N n : ℕ} (base : ℕ) (hb : base + n ≤ N) (X : (⟨2, ![N, 768]⟩ : Shape).Idx → EReal) :
    (⟨2, ![n, 768]⟩ : Shape).Idx → EReal :=
  fun z => X (ix2 ⟨base + (z 0).val, by have h : (z 0).val < n := (z 0).isLt; omega⟩ (z 1))

/-- A block of rows of the result is the result of that block of feature rows. -/
theorem rows_result {N n : ℕ} (base : ℕ) (hb : base + n ≤ N) (X : (⟨2, ![N, 768]⟩ : Shape).Idx → EReal)
    (W : (⟨3, ![768, 16, 16]⟩ : Shape).Idx → EReal) (b : (⟨3, ![1, 16, 16]⟩ : Shape).Idx → EReal) :
    rows base hb (result X W b) = result (rowsOf base hb X) W b := by
  unfold result
  rw [← sq_rows, ← sq_rows, ← sq_rows, ← sq_rows, rows_affine]
  rfl

end Cert.Spec

end
-- ==== Proof.KernelValue.lean ====
/-
  THE KERNEL'S RESULT ARRAY: after the run the reshaped output holds `Cert.Spec.result` of the three arguments.

  The grid has 64 points; point `t` reads rows `1024 t, …, 1024 t + 1023` of the features (all 768 columns), the whole
  flattened bf16 weights — which a reshape and a narrowing on the host wrote before the region: over the extended reals
  the weights themselves, flattened — and the whole bias, and writes rows `1024 t, …` of a `[65536, 256]` array. By
  KernelBlock.lean the written block is the fourth square of the affine start of those rows, flattened; squaring and the
  affine start both read one matrix's own row only, so this is that block of rows of the whole result, flattened. The 64
  row blocks tile the array (row `r` lies in block `r / 1024`), so the array ends at the whole result flattened, and the
  reshape after the region undoes the flattening.
-/
import proofs.«125091_j29832842838337_2_alg».proof.Proof.Gen.KernelIdeal.Frame
import proofs.«125091_j29832842838337_2_alg».proof.Proof.KernelBlock
import proofs.«125091_j29832842838337_2_alg».proof.Proof.Spec
import Idealize.ShloMosaic.Lib.Pipeline.Value
import Idealize.ShloMosaic.Lib.StableHlo.Run

set_option maxRecDepth 16384

noncomputable section

namespace Cert.KernelIdeal.KernelValue

open Idealize.ShloMosaic Idealize.ShloMosaic.TcCoe Idealize.ShloMosaic.Tactic Idealize.ShloMosaic.ValueIdx
open Idealize.SL Idealize.SL.Sem
open Idealize.ShloMosaic.Pipeline (Dat Cfg Window)
open Cert.KernelIdeal Cert.KernelIdeal.Gen Cert.Squaring Cert.Affine Cert.Spec Cert.KernelIdeal.Block

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- A stack `[65536, 16, 16]` has as many entries as `[65536, 256]`. -/
theorem unflattens : S65536x16x16.ShapeCasts S65536x256 := by decide

/-- The result of the three arguments, each matrix flattened to a row of 256: what the region's output array ends at. -/
def flatResult (c : Dev nD) : S65536x256.Idx → EReal :=
  shapeCast S65536x256
    (result (N := 65536) (m ((c : Thread nD τ).loc main_arg0)) (m ((c : Thread nD τ).loc main_arg1))
      (m ((c : Thread nD τ).loc main_arg2))) unflattens

/-- The printed index maps over the grid: the features and the output move one block of rows per point, the weights and the
    bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- The weights as the region finds them: flattened; the narrowing to bf16 changes nothing over the extended reals. -/
theorem weights_eq (c : Dev nD) :
    (V m c main_v1 : S768x256.Idx → EReal) = flatW (m ((c : Thread nD τ).loc main_arg1)) := by
  show StableHlo.after hostOps0 (fun b => m (c, b)) (Proc.devRef .tc main_v1) = _
  after_results
  rfl

/-- Point `t`'s feature block: rows `1024 t, …` of the features. -/
theorem features_blk (c : Dev nD) (t : Fin cfg0.N) (ht : 1024 * t.val + 1024 ≤ 65536) :
    (iblk m c 0 t : Vec Ideal S1024x768 .f32) = rowsOf (N := 65536) (n := 1024) (1024 * t.val) ht (m ((c : Thread nD τ).loc main_arg0)) := by
  obtain ⟨e00, e01, -⟩ := idx_facts t
  funext z
  show V m c main_arg0 (((cfg0.win 0).blk t).view.emb z) = m ((c : Thread nD τ).loc main_arg0) _
  rw [V_main_arg0]
  refine congrArg _ (funext fun a => Fin.ext ?_)
  match a with
  | ⟨0, _⟩ => show win0_0.index t (0 : Fin 2) * 1024 + 1 * (z 0).val = 1024 * t.val + (z 0).val; omega
  | ⟨1, _⟩ => show win0_0.index t (1 : Fin 2) * 768 + 1 * (z 1).val = (z 1).val; omega

/-- Every point's weight block: all the flattened weights. -/
theorem weights_blk (c : Dev nD) (t : Fin cfg0.N) :
    (iblk m c 1 t : Vec Ideal S768x256 .bf16) = flatW (m ((c : Thread nD τ).loc main_arg1)) := by
  obtain ⟨-, -, e10, e11, -⟩ := idx_facts t
  rw [← weights_eq m c]
  funext z
  show V m c main_v1 (((cfg0.win 1).blk t).view.emb z) = V m c main_v1 z
  refine congrArg _ (funext fun a => Fin.ext ?_)
  match a with
  | ⟨0, _⟩ => show win0_1.index t (0 : Fin 2) * 768 + 1 * (z 0).val = (z 0).val; omega
  | ⟨1, _⟩ => show win0_1.index t (1 : Fin 2) * 256 + 1 * (z 1).val = (z 1).val; omega

/-- Every point's bias block: the whole bias. -/
theorem bias_blk (c : Dev nD) (t : Fin cfg0.N) :
    (iblk m c 2 t : Vec Ideal S1x16x16 .f32) = m ((c : Thread nD τ).loc main_arg2) := by
  obtain ⟨-, -, -, -, e20, e21, e22, -⟩ := idx_facts t
  funext z
  show V m c main_arg2 (((cfg0.win 2).blk t).view.emb z) = m ((c : Thread nD τ).loc main_arg2) z
  rw [V_main_arg2]
  refine congrArg _ (funext fun a => Fin.ext ?_)
  match a with
  | ⟨0, _⟩ => show win0_2.index t (0 : Fin 3) * 1 + 1 * (z 0).val = (z 0).val; omega
  | ⟨1, _⟩ => show win0_2.index t (1 : Fin 3) * 16 + 1 * (z 1).val = (z 1).val; omega
  | ⟨2, _⟩ => show win0_2.index t (2 : Fin 3) * 16 + 1 * (z 2).val = (z 2).val; omega

/-- WHAT POINT `t` WRITES BACK is block `t` of the flattened result. -/
theorem flushed_eq (c : Dev nD) (t : Fin cfg0.N) :
    (dats m 0 c).flushed 3 t = ((cfg0.win 3).blk t).view.read (Elt Ideal) (flatResult m c) := by
  have ht64 : t.val < 64 := lt_of_lt_of_eq t.isLt N_0
  have ht : 1024 * t.val + 1024 ≤ 65536 := by omega
  obtain ⟨-, -, -, -, -, -, -, e30, e31⟩ := idx_facts t
  show (cfg0.win 3).cut (grid0.coords t) ((dats m 0 c).after 3 t) = _
  rw [after0_3, out_eq, View.canon_unit_zero hz2]
  simp only [View.ld_unit_zero (S := S1024x768) hz2, View.ld_unit_zero (S := S768x256) hz2,
    View.ld_unit_zero (S := S1x16x16) hz3]
  rw [features_blk m c t ht, weights_blk m c t, bias_blk m c t]
  funext j
  have hj0 : (j 0).val < 1024 := (j 0).isLt
  have hj1 : (j 1).val < 256 := (j 1).isLt
  show shapeCast S1024x256 (result (N := 1024) (rowsOf (N := 65536) (n := 1024) (1024 * t.val) ht (m ((c : Thread nD τ).loc main_arg0)))
      (m ((c : Thread nD τ).loc main_arg1)) (m ((c : Thread nD τ).loc main_arg2))) shapeCasts_S1024x16x16_S1024x256 j
    = flatResult m c (((cfg0.win 3).blk t).view.emb j)
  rw [← rows_result (1024 * t.val) ht]
  unfold flatResult
  rw [shapeCast_apply _ shapeCasts_S1024x16x16_S1024x256 j
      (ix3 (j 0) (⟨(j 1).val / 16, by omega⟩ : Fin 16) (⟨(j 1).val % 16, by omega⟩ : Fin 16)) (by
        rw [Shape.rowMajor_val_three, Shape.rowMajor_val_two]
        show ((j 0).val * 16 + (j 1).val / 16) * 16 + (j 1).val % 16 = (j 0).val * 256 + (j 1).val
        omega),
    shapeCast_apply _ unflattens (((cfg0.win 3).blk t).view.emb j)
      (ix3 (⟨1024 * t.val + (j 0).val, by omega⟩ : Fin 65536) (⟨(j 1).val / 16, by omega⟩ : Fin 16) (⟨(j 1).val % 16, by omega⟩ : Fin 16)) (by
        rw [Shape.rowMajor_val_three, Shape.rowMajor_val_two]
        show ((1024 * t.val + (j 0).val) * 16 + (j 1).val / 16) * 16 + (j 1).val % 16
          = (win0_3.index t (0 : Fin 2) * 1024 + 1 * (j 0).val) * 256 + (win0_3.index t (1 : Fin 2) * 256 + 1 * (j 1).val)
        omega)]
  rfl

/-- An index of the output array is in point `t`'s block iff each coordinate is in the block's range on its axis. -/
theorem mem_blk (t : Fin cfg0.N) (i : S65536x256.Idx) :
    i ∈ ((cfg0.win 3).blk t).view.set ↔ ∀ a : Fin 2, win0_3.index t a * S1024x256.size a ≤ (i a).val
      ∧ (i a).val < win0_3.index t a * S1024x256.size a + S1024x256.size a := by
  show i ∈ ((View.whole main_v2).slice (win0_3.rect t)).set ↔ _
  rw [View.set_slice_whole, Rect.mem_set_unit]
  exact Iff.rfl

/-- The 64 row blocks tile the output array: row `r` is in block `r / 1024`. -/
theorem cover (i : S65536x256.Idx) :
    ∃ t : Fin cfg0.N, (cfg0.win 3).flush t = true ∧ i ∈ ((cfg0.win 3).blk t).view.set := by
  have hi0 : (i 0).val < 65536 := (i 0).isLt
  have hi1 : (i 1).val < 256 := (i 1).isLt
  have hlt : (i 0).val / 1024 < grid0.N := by rw [N_0]; omega
  obtain ⟨-, -, -, -, -, -, -, e30, e31⟩ := idx_facts (⟨(i 0).val / 1024, hlt⟩ : Fin cfg0.N)
  refine ⟨⟨(i 0).val / 1024, hlt⟩, flush0_3 _, ?_⟩
  rw [mem_blk]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    have e : win0_3.index ⟨(i 0).val / 1024, hlt⟩ (0 : Fin 2) = (i 0).val / 1024 := e30
    omega
  | ⟨1, _⟩ =>
    show win0_3.index ⟨(i 0).val / 1024, hlt⟩ (1 : Fin 2) * 256 ≤ (i 1).val
      ∧ (i 1).val < win0_3.index ⟨(i 0).val / 1024, hlt⟩ (1 : Fin 2) * 256 + 256
    omega

/-- THE OUTPUT ARRAY after the region: the flattened result. -/
theorem final (c : Dev nD) : (dats m 0 c).arrAt 3 cfg0.N = flatResult m c :=
  (dats m 0 c).arrAt_eq_of_cover 3 (flatResult m c) (fun t _ => flushed_eq m c t) cover

/-- The reshape after the region undoes the flattening. -/
theorem tail_eq (c : Dev nD) :
    Pipeline.afterTail₀ cfgs (dats m) 0 (V0 m) [hostOps1] c main_v3
      = result (N := 65536) (m ((c : Thread nD τ).loc main_arg0)) (m ((c : Thread nD τ).loc main_arg1))
          (m ((c : Thread nD τ).loc main_arg2)) := by
  unfold Pipeline.afterTail₀
  show StableHlo.after hostOps1 _ (Proc.devRef .tc main_v3) = _
  after_results
  rw [(Pipeline.withArrays_arr spec0 launch0.win.arr_inj c _ _ 3).trans (final m c)]
  exact shapeCast_shapeCast _ unflattens _

/-- THE RUN, read: the result buffer ends at the result of the arguments, and the arguments end unchanged. -/
theorem run : θ_run defs (onTc (τ := τ) (main (F := Ideal))) ⟨m, fun _ => 0, ρ⟩ fun r => ∀ c : Dev nD,
      r.2.mem ((c.tc : Thread nD τ).loc main_v3)
        = result (N := 65536) (m ((c : Thread nD τ).loc main_arg0)) (m ((c : Thread nD τ).loc main_arg1))
            (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

end Cert.KernelIdeal.KernelValue

end
-- ==== Proof.RefValue.lean ====
/-
  THE REFERENCE COMPUTES `Cert.Spec.result`.

  Its affine start, read one operation at a time: the weights reshaped to `[768, 256]`, the product with the feature rows
  (entry `(n, c)` the sum over the 768 shared positions), reshaped to `[N, 16, 16]` (entry `(n, i, k)` is entry
  `(n, 16 i + k)`, the same row-major position), plus the bias repeated along the batch, times the word of 2⁻⁴, plus the
  identity matrix — the truth bit of "row number + 0 = column number" converted to a float and repeated along the batch.
  Then four batched products of the stack with itself, each entry the sum over the shared position `j` of
  `A[n, i, j] · A[n, j, k]`: a squaring, matrix by matrix.
-/
import proofs.«125091_j29832842838337_2_alg».proof.Proof.Gen.ReferenceIdeal.Read
import proofs.«125091_j29832842838337_2_alg».proof.Proof.Spec

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx
open Cert.Squaring Cert.Affine Cert.Spec

variable (x0 : (⟨S65536x768, .f32⟩ : BufTy).Contents (Elt Ideal)) (x1 : (⟨S768x16x16, .f32⟩ : BufTy).Contents (Elt Ideal))
  (x2 : (⟨S1x16x16, .f32⟩ : BufTy).Contents (Elt Ideal))

/-- The reference's stack before the squarings is the affine start. -/
theorem start_eq : val_main_v15 (F := Ideal) x0 x1 x2 = affine (N := 65536) x0 (flatW x1) x2 := by
  funext y
  obtain ⟨n, i, k, rfl⟩ : ∃ (n : Fin 65536) (i k : Fin 16), y = ix3 n i k := ⟨y 0, y 1, y 2, eq_ix3 y⟩
  have hsum : val_main_v2 (F := Ideal) x0 x1 (ix3 n i k) = ∑ q : Fin 768, x0 (ix2 n q) * flatW x1 (ix2 q (flat i k)) := by
    rw [val_main_v2_apply, val_main_v1_apply]
    refine Finset.sum_congr rfl fun q _ => ?_
    have el : lidx_main_v1 (idx_main_v2 (ix3 n i k)) q = ix2 n q := funext fun a => Fin.ext (by
      match a with
      | ⟨0, _⟩ =>
        show ((n.val * 16 + i.val) * 16 + k.val) / 256 = n.val
        have := i.isLt; have := k.isLt; omega
      | ⟨1, _⟩ => rfl)
    have er : ridx_main_v1 (idx_main_v2 (ix3 n i k)) q = ix2 q (flat i k) := funext fun a => Fin.ext (by
      match a with
      | ⟨0, _⟩ => rfl
      | ⟨1, _⟩ =>
        show ((n.val * 16 + i.val) * 16 + k.val) % 256 = 16 * i.val + k.val
        have := i.isLt; have := k.isLt; omega)
    rw [el, er]
    rfl
  have hbias : val_main_v3 (F := Ideal) x2 (ix3 n i k) = x2 (ix3 (0 : Fin 1) i k) := by
    rw [val_main_v3_apply]
    exact congrArg x2 (funext fun a => by match a with | ⟨0, _⟩ => rfl | ⟨1, _⟩ => rfl | ⟨2, _⟩ => rfl)
  have hscale : val_main_v5 (F := Ideal) (ix3 n i k) = Ideal.ofBits .f32 0x3D800000#32 := by
    rw [val_main_v5_apply]
    rfl
  have heye : val_main_v14 (F := Ideal) (ix3 n i k) = eye i k := by
    rw [val_main_v14_apply, val_main_v13_apply, val_main_v12_apply, val_main_v11_apply, val_main_v10_apply,
      val_main_v7_apply, val_main_v8_apply, val_main_v9_apply, val_main_c_apply]
    exact eye_convert i k
  show (val_main_v2 (F := Ideal) x0 x1 (ix3 n i k) + val_main_v3 (F := Ideal) x2 (ix3 n i k)) * val_main_v5 (F := Ideal) (ix3 n i k)
      + val_main_v14 (F := Ideal) (ix3 n i k) = _
  rw [hsum, hbias, hscale, heye]
  rfl

/-- The first batched product is a squaring. -/
theorem sq16 : val_main_v16 (F := Ideal) x0 x1 x2 = sq (n := 65536) (val_main_v15 (F := Ideal) x0 x1 x2) := by
  funext y
  rw [val_main_v16_apply]
  have el : ∀ j, lidx_main_v16 y j = ix3 (y 0) (y 1) j := fun j => funext fun a => by
    match a with | ⟨0, _⟩ => rfl | ⟨1, _⟩ => rfl | ⟨2, _⟩ => rfl
  have er : ∀ j, ridx_main_v16 y j = ix3 (y 0) j (y 2) := fun j => funext fun a => by
    match a with | ⟨0, _⟩ => rfl | ⟨1, _⟩ => rfl | ⟨2, _⟩ => rfl
  simp only [el, er]
  rfl

/-- The second. -/
theorem sq17 : val_main_v17 (F := Ideal) x0 x1 x2 = sq (n := 65536) (val_main_v16 (F := Ideal) x0 x1 x2) := by
  funext y
  rw [val_main_v17_apply]
  have el : ∀ j, lidx_main_v17 y j = ix3 (y 0) (y 1) j := fun j => funext fun a => by
    match a with | ⟨0, _⟩ => rfl | ⟨1, _⟩ => rfl | ⟨2, _⟩ => rfl
  have er : ∀ j, ridx_main_v17 y j = ix3 (y 0) j (y 2) := fun j => funext fun a => by
    match a with | ⟨0, _⟩ => rfl | ⟨1, _⟩ => rfl | ⟨2, _⟩ => rfl
  simp only [el, er]
  rfl

/-- The third. -/
theorem sq18 : val_main_v18 (F := Ideal) x0 x1 x2 = sq (n := 65536) (val_main_v17 (F := Ideal) x0 x1 x2) := by
  funext y
  rw [val_main_v18_apply]
  have el : ∀ j, lidx_main_v18 y j = ix3 (y 0) (y 1) j := fun j => funext fun a => by
    match a with | ⟨0, _⟩ => rfl | ⟨1, _⟩ => rfl | ⟨2, _⟩ => rfl
  have er : ∀ j, ridx_main_v18 y j = ix3 (y 0) j (y 2) := fun j => funext fun a => by
    match a with | ⟨0, _⟩ => rfl | ⟨1, _⟩ => rfl | ⟨2, _⟩ => rfl
  simp only [el, er]
  rfl

/-- The fourth. -/
theorem sq19 : val_main_v19 (F := Ideal) x0 x1 x2 = sq (n := 65536) (val_main_v18 (F := Ideal) x0 x1 x2) := by
  funext y
  rw [val_main_v19_apply]
  have el : ∀ j, lidx_main_v19 y j = ix3 (y 0) (y 1) j := fun j => funext fun a => by
    match a with | ⟨0, _⟩ => rfl | ⟨1, _⟩ => rfl | ⟨2, _⟩ => rfl
  have er : ∀ j, ridx_main_v19 y j = ix3 (y 0) j (y 2) := fun j => funext fun a => by
    match a with | ⟨0, _⟩ => rfl | ⟨1, _⟩ => rfl | ⟨2, _⟩ => rfl
  simp only [el, er]
  rfl

/-- The reference's result is four squarings of the affine start. -/
theorem result_eq : val_main_v19 (F := Ideal) x0 x1 x2 = result (N := 65536) x0 x1 x2 := by
  rw [sq19, sq18, sq17, sq16, start_eq]
  rfl

end Cert.ReferenceIdeal.RefValue

end
-- ==== Proof.lean ====
/-
  A kernel for the scaling-and-squaring approximation of a batched matrix exponential against its jnp reference, equal
  over the extended reals.

  Both programs take feature rows `x[65536, 768]`, weights `W[768, 16, 16]` and a bias `b[1, 16, 16]`, form for every row
  `n` the 16 × 16 matrix

      A₀[n] = (x[n] · W + b) · 2⁻⁴ + I            (the product over the 768 shared positions, W's matrices flattened),

  and square it four times: the result is `((((A₀)²)²)²)²`, matrix by matrix (Spec.lean).

  The reference does this with one product, one reshape and four batched products on the host (RefValue.lean). The kernel
  works on blocks of 1024 rows: it narrows the block to bf16 for the product — no change over the extended reals —, builds
  the identity matrix by a select where the reference converts a truth bit, and computes each squaring as sixteen
  accumulated outer products `acc + A[:, :, j] · A[:, j, :]` from the zero matrix, writing the fourth square as rows of a
  `[65536, 256]` array that the host reshapes back (KernelAffine.lean, KernelSquarings.lean, KernelBlock.lean,
  KernelValue.lean). Sixteen terms added one at a time from zero are the sum over `j` in any order: addition on the
  extended reals is commutative and associative also at the infinities, and nothing else is used, so the inputs need not
  be finite for the two results to agree. The rewrite ledger of the idealization is empty, so that conjunct is trivial; the
  two kernel frames are the generated ones, and the reference's frame is its generated run with the result forgotten.
-/
import proofs.«125091_j29832842838337_2_alg».proof.Defs
import proofs.«125091_j29832842838337_2_alg».proof.Proof.Gen.Kernel
import proofs.«125091_j29832842838337_2_alg».proof.Proof.Gen.Kernel.Frame
import proofs.«125091_j29832842838337_2_alg».proof.Proof.Gen.KernelIdeal
import proofs.«125091_j29832842838337_2_alg».proof.Proof.Gen.KernelIdeal.Frame
import proofs.«125091_j29832842838337_2_alg».proof.Proof.Gen.ReferenceIdeal
import proofs.«125091_j29832842838337_2_alg».proof.Proof.Gen.Pre_finite_inputs
import proofs.«125091_j29832842838337_2_alg».proof.Proof.Gen.ReferenceIdeal.Run
import proofs.«125091_j29832842838337_2_alg».proof.Proof.Gen.ReferenceIdeal.Read
import proofs.«125091_j29832842838337_2_alg».proof.Proof.KernelValue
import proofs.«125091_j29832842838337_2_alg».proof.Proof.RefValue
import Idealize.ShloMosaic.Adequacy
import Idealize.ShloMosaic.Init

noncomputable section

namespace Cert.Proof

open Idealize.ShloMosaic Idealize.SL.Sem

/-- The printed kernel runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments as they were: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the arguments both programs end with the four-times-squared affine start of those
    arguments in their result buffers. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.RefValue.result_eq, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
